-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000x256 .f32) (main_arg3 : FVec F S256x256 .f32) (main_arg4 : FVec F S256 .f32) (main_arg5 : FVec F S256x256 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x256 .f32 := Host.absf main_arg2
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 37
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S256x256, .bf16⟩
  | .hbm, ⟨31, _⟩ => ⟨S256x256, .bf16⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S50000 : Shape := ⟨1, ![50000]⟩
abbrev S50000x1 : Shape := ⟨2, ![50000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000, .f32⟩
  | .hbm, ⟨57, _⟩ => ⟨S50000x1, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RowNet.lean ====
/-
  A node's new feature row, as one function of the row.

  For a node with feature row x and aggregated message row a (both of length 256) the block computes
    z = x + a,   h = relu (z W1 + b1),   u = relu (h W2 + b2),   r = x + u,
  and then normalises r over its 256 entries:
    mu = (sum_j r_j) / 256,   var = (sum_j (r_j - mu)^2) / 256,
    out_j = (r_j - mu) * rsqrt (var + eps) * gamma_j + beta_j.
  Every step reads the node's own row only (and the shared weights), so an array of such rows is computed row by
  row: a block of rows of the input gives that block of rows of the output. All operations are the exact ones on
  the extended reals; the constants 0, 256 and eps are kept as their bit patterns.
-/
import Idealize.ShloMosaic.Lib.ValueIdx
import Idealize.ShloMosaic.PureOps.Ideal
import Idealize.ShloMosaic.PureOps.Ideal.Laws

noncomputable section

namespace Cert.RowNet

open Idealize.ShloMosaic Idealize.ShloMosaic.ValueIdx

/-- A 256 x 256 weight array and a bias laid out as one row. -/
abbrev Mat := (⟨2, ![256, 256]⟩ : Shape).Idx → EReal
abbrev Row := (⟨2, ![1, 256]⟩ : Shape).Idx → EReal

/-- max(v, 0), the zero kept as its bit pattern. -/
def relu (v : EReal) : EReal := max v (Ideal.ofBits .f32 0x00000000#32)

/-- One linear layer applied to a row: entry j is the sum over c of v_c * W(c, j), plus b_j. -/
def lin (W : Mat) (b : Row) (v : Fin 256 → EReal) : Fin 256 → EReal :=
  fun j => (∑ c : Fin 256, v c * W (ix2 c j)) + b (ix2 (0 : Fin 1) j)

/-- The residual row r = x + relu (relu ((x + a) W1 + b1) W2 + b2). -/
def resid (W1 : Mat) (b1 : Row) (W2 : Mat) (b2 : Row) (xr ar : Fin 256 → EReal) : Fin 256 → EReal :=
  fun j => xr j + relu (lin W2 b2 (fun c => relu (lin W1 b1 (fun c' => xr c' + ar c') c)) j)

/-- The divisor 256 and the stabiliser eps, as bit patterns. -/
def c256 : EReal := Ideal.ofBits .f32 0x43800000#32
def eps : EReal := Ideal.ofBits .f32 0x3727C5AC#32

/-- The mean of a row. -/
def mean (r : Fin 256 → EReal) : EReal := Ideal.div (∑ j : Fin 256, r j) c256

/-- The mean square of the centred row. -/
def variance (r : Fin 256 → EReal) : EReal :=
  Ideal.div (∑ j : Fin 256, (r j - mean r) * (r j - mean r)) c256

/-- Layer normalisation of a row with scale gamma and shift beta. -/
def layerNorm (g be : Row) (r : Fin 256 → EReal) : Fin 256 → EReal :=
  fun j => (r j - mean r) * Ideal.rsqrt (variance r + eps) * g (ix2 (0 : Fin 1) j) + be (ix2 (0 : Fin 1) j)

/-- The node's new row. -/
def rowOut (W1 : Mat) (b1 : Row) (W2 : Mat) (b2 : Row) (g be : Row) (xr ar : Fin 256 → EReal) : Fin 256 → EReal :=
  layerNorm g be (resid W1 b1 W2 b2 xr ar)

/-- The array of new rows: row p of the result is `rowOut` of row p of X and row p of A. -/
def arrayOut {M : Nat} (X A : (⟨2, ![M, 256]⟩ : Shape).Idx → EReal) (W1 : Mat) (b1 : Row) (W2 : Mat) (b2 : Row)
    (g be : Row) : (⟨2, ![M, 256]⟩ : Shape).Idx → EReal :=
  fun i => rowOut W1 b1 W2 b2 g be (fun c => X (ix2 (i 0) c)) (fun c => A (ix2 (i 0) c)) (i 1)

theorem arrayOut_apply {M : Nat} (X A : (⟨2, ![M, 256]⟩ : Shape).Idx → EReal) (W1 : Mat) (b1 : Row) (W2 : Mat)
    (b2 : Row) (g be : Row) (p : Fin M) (q : Fin 256) :
    arrayOut X A W1 b1 W2 b2 g be (ix2 p q)
      = rowOut W1 b1 W2 b2 g be (fun c => X (ix2 p c)) (fun c => A (ix2 p c)) q := rfl

/-- Rows are independent: if row p of a block is row i of the whole arrays, entry (p, q) of the block's result is
    entry (i, q) of the whole result. -/
theorem arrayOut_of_rows {B M : Nat} (xb ab : (⟨2, ![B, 256]⟩ : Shape).Idx → EReal)
    (X A : (⟨2, ![M, 256]⟩ : Shape).Idx → EReal) (W1 : Mat) (b1 : Row) (W2 : Mat) (b2 : Row) (g be : Row)
    (p : Fin B) (i : Fin M) (q : Fin 256)
    (hx : ∀ c, xb (ix2 p c) = X (ix2 i c)) (ha : ∀ c, ab (ix2 p c) = A (ix2 i c)) :
    arrayOut xb ab W1 b1 W2 b2 g be (ix2 p q) = arrayOut X A W1 b1 W2 b2 g be (ix2 i q) := by
  rw [arrayOut_apply, arrayOut_apply, funext hx, funext ha]

end Cert.RowNet

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibBiasRow.lean ====
/-
  A bias row added to every row of an array, with no activation, entry by entry.

  The last layer of a network adds a bias to every row of an [a, n] array and stops there. Entry (i, d) of the result is
  A(i, d) + b(d), with the bias given as an array of one row [1, n]. A whole-array program builds that row from a
  vector of length n by two broadcasts; a tiled program receives the vector reshaped to one row and adds it to a block
  of rows at a time. Entry (i, d) uses row i of A only, so a block of rows with a copy of the bias row is that block of
  the whole result. Any extents; no finiteness is used.
-/
import proofs.«123430_j12180527252066_2_alg».proof.Proof.LibRowOfVector
import proofs.«123430_j12180527252066_2_alg».proof.Proof.LibHostBroadcast
import Idealize.ShloMosaic.PureOps.Ideal
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

/-- Bias row added to every row. -/
def biasedRow {a n : Nat} (A : (⟨2, ![a, n]⟩ : Shape).Idx → EReal) (b : (⟨2, ![1, n]⟩ : Shape).Idx → EReal) :
    (⟨2, ![a, n]⟩ : Shape).Idx → EReal :=
  fun i => A i + b (ix2 (0 : Fin 1) (i 1))

theorem biasedRow_apply {a n : Nat} (A : (⟨2, ![a, n]⟩ : Shape).Idx → EReal) (b : (⟨2, ![1, n]⟩ : Shape).Idx → EReal)
    (p : Fin a) (d : Fin n) : biasedRow A b (ix2 p d) = A (ix2 p d) + b (ix2 (0 : Fin 1) d) := rfl

/-- The host's add-bias, with the bias broadcast from a vector to one row and that row down the rows, is the biased
    array with the bias vector laid out as one row. -/
theorem hostBias {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (hs : (⟨1, ![n]⟩ : Shape).ShapeCasts ⟨2, ![1, n]⟩) :
    addf A (broadcastInDim ⟨2, ![a, n]⟩ ![0, 1] h1 (broadcastInDim ⟨2, ![1, n]⟩ ![1] h2 b))
      = biasedRow A (shapeCast ⟨2, ![1, n]⟩ b hs) := by
  funext i
  obtain ⟨p, d, rfl⟩ : ∃ (p : Fin a) (d : Fin n), i = ix2 p d := ⟨i 0, i 1, eq_ix2 i⟩
  rw [biasedRow_apply]
  show A (ix2 p d) + broadcastInDim ⟨2, ![a, n]⟩ ![0, 1] h1 (broadcastInDim ⟨2, ![1, n]⟩ ![1] h2 b) (ix2 p d) = _
  rw [Cert.LibHostBroadcast.bcast_rows_apply, ← Cert.LibRowOfVector.row_of_vector b hs h2]

/-- A row of the biased array depends on its own row only: a block of rows, with a copy of the bias row, is that block
    of the biased whole array. -/
theorem biasedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    biasedRow ab bb (ix2 p d) = biasedRow A b (ix2 i d) := by
  rw [biasedRow_apply, biasedRow_apply, hA, hb]

end Cert.BiasRow

end
-- ==== Proof.LibDense.lean ====
/-
  Dense layers over the extended reals, entry by entry.

  A dense layer multiplies an [m, k] array by a [k, n] array and adds a bias row to every row of the product:
  entry (i, j) of the result is the sum over c of A(i, c) * W(c, j), plus b(j). The host spells the product as one
  dot_general and the bias as two broadcasts; its sigmoid as 1 / (1 + exp (-x)), which on the extended reals is the
  logistic function itself (with its limits 0 and 1 at the two infinities). No finiteness is used anywhere: only the
  shape of the sums.
-/
import Idealize.ShloMosaic.Lib.ValueIdx
import Idealize.ShloMosaic.PureOps.Ideal
import Idealize.ShloMosaic.PureOps.Ideal.Laws
import proofs.«123430_j12180527252066_2_alg».proof.Proof.LibBiasRow

noncomputable section

namespace Cert.LibDense

open Idealize.ShloMosaic Idealize.ShloMosaic.ValueIdx

/-- The product of an [m, k] array by a [k, n] array: entry (i, j) is the sum over c of A(i, c) * B(c, j). -/
def mm {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem mm_apply {m k n : Nat} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- The operand entries a plain product reads at output entry (a, b) and contracted coordinate c. -/
theorem plain_lhsIdx {m k n : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx {m k n : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's plain dot_general is the product. -/
theorem hostDot_eq_mm {m k n : Nat} {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  rw [mm_apply]
  show FloatOps.dotGeneral _ prec .single A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A kernel's plain matmul into the zero accumulator is the product. -/
theorem matmul_eq_mm {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  rw [mm_apply]
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- A dense layer: the product with the bias row added to every row. -/
def dense {m k n : Nat} (A : (⟨2, ![m, k]⟩ : Shape).Idx → EReal) (W : (⟨2, ![k, n]⟩ : Shape).Idx → EReal)
    (b : (⟨2, ![1, n]⟩ : Shape).Idx → EReal) : (⟨2, ![m, n]⟩ : Shape).Idx → EReal :=
  Cert.BiasRow.biasedRow (mm A W) b

theorem dense_apply {m k n : Nat} (A : (⟨2, ![m, k]⟩ : Shape).Idx → EReal) (W : (⟨2, ![k, n]⟩ : Shape).Idx → EReal)
    (b : (⟨2, ![1, n]⟩ : Shape).Idx → EReal) (p : Fin m) (q : Fin n) :
    dense A W b (ix2 p q) = (∑ c : Fin k, A (ix2 p c) * W (ix2 c q)) + b (ix2 (0 : Fin 1) q) := rfl

/-- The host's dense layer (dot_general, then the bias vector broadcast to a row and down the rows) is the dense
    layer with the bias vector laid out as one row. -/
theorem hostDense {m k n : Nat} (A : FVec Ideal ⟨2, ![m, k]⟩ .f32) (W : FVec Ideal ⟨2, ![k, n]⟩ .f32)
    (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (Host.dotGeneral (DotDims.plain m k n) none A W)
        (broadcastInDim ⟨2, ![m, n]⟩ ![0, 1] h1 (broadcastInDim ⟨2, ![1, n]⟩ ![1] h2 b))
      = dense A W (shapeCast ⟨2, ![1, n]⟩ b hs) := by
  rw [Cert.BiasRow.hostBias _ b h1 h2 hs, hostDot_eq_mm]; rfl

/-- A one-row array broadcast to [m, n] (trailing axes aligned) reads, at (p, q), the row's entry (0, q). -/
theorem broadcastTo_rows_apply {α : Type} {m n : Nat} (v : (⟨2, ![1, n]⟩ : Shape).Idx → α)
    (h : (⟨2, ![1, n]⟩ : Shape).Broadcasts ⟨2, ![m, n]⟩) (p : Fin m) (q : Fin n) :
    broadcastTo ⟨2, ![m, n]⟩ v h (ix2 p q) = v (ix2 (0 : Fin 1) q) := by
  refine broadcastTo_apply v h (ix2 p q) (ix2 (0 : Fin 1) q) fun a => ?_
  match a with
  | ⟨0, _⟩ => rfl
  | ⟨1, _⟩ =>
    show q.val = if n = 1 then 0 else q.val
    split
    · have := q.isLt; omega
    · rfl

/-- A kernel's dense block: the plain matmul of the loaded blocks into the zero accumulator, plus the loaded bias
    row broadcast down the rows, is the dense layer of the blocks. -/
theorem kernelDense {m k n : Nat} {φ₁ φ₂ : FTy} (x0 : FVec Ideal ⟨2, ![m, k]⟩ φ₁) (x1 : FVec Ideal ⟨2, ![k, n]⟩ φ₂)
    (x2 : FVec Ideal ⟨2, ![1, n]⟩ .f32) (hb : (⟨2, ![1, n]⟩ : Shape).Broadcasts ⟨2, ![m, n]⟩) :
    addf (matmul (DotDims.plain m k n) none x0 x1 (constant (F := Ideal) ⟨2, ![m, n]⟩ .f32 0x00000000#32))
        (broadcastTo ⟨2, ![m, n]⟩ x2 hb)
      = dense x0 x1 x2 := by
  rw [matmul_eq_mm]
  funext i
  obtain ⟨p, q, rfl⟩ : ∃ (p : Fin m) (q : Fin n), i = ix2 p q := ⟨i 0, i 1, eq_ix2 i⟩
  show mm x0 x1 (ix2 p q) + broadcastTo ⟨2, ![m, n]⟩ x2 hb (ix2 p q) = _
  rw [broadcastTo_rows_apply]; rfl

/-- The sum of two products with the bias row added to every row: what a gate applies its activation to. -/
def gatePre {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) : (⟨2, ![m, n]⟩ : Shape).Idx → EReal :=
  Cert.BiasRow.biasedRow (fun i => mm A X i + mm B H i) b

theorem gatePre_apply {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) (p : Fin m) (q : Fin n) :
    gatePre A X B H b (ix2 p q)
      = ((∑ c : Fin k, A (ix2 p c) * X (ix2 c q)) + ∑ c : Fin k, B (ix2 p c) * H (ix2 c q)) + b (ix2 (0 : Fin 1) q) := rfl

/-- A kernel's gate block before the activation: two plain matmuls into zero accumulators, added, plus the bias row. -/
theorem kernelGatePre {m k n : Nat} {φ₁ φ₂ φ₃ φ₄ : FTy} (x0 : FVec Ideal ⟨2, ![m, k]⟩ φ₁) (x1 : FVec Ideal ⟨2, ![k, n]⟩ φ₂)
    (x2 : FVec Ideal ⟨2, ![m, k]⟩ φ₃) (x3 : FVec Ideal ⟨2, ![k, n]⟩ φ₄)
    (x4 : FVec Ideal ⟨2, ![1, n]⟩ .f32) (hb : (⟨2, ![1, n]⟩ : Shape).Broadcasts ⟨2, ![m, n]⟩) :
    addf (addf (matmul (DotDims.plain m k n) none x0 x1 (constant (F := Ideal) ⟨2, ![m, n]⟩ .f32 0x00000000#32))
            (matmul (DotDims.plain m k n) none x2 x3 (constant (F := Ideal) ⟨2, ![m, n]⟩ .f32 0x00000000#32)))
        (broadcastTo ⟨2, ![m, n]⟩ x4 hb)
      = gatePre x0 x1 x2 x3 x4 := by
  rw [matmul_eq_mm, matmul_eq_mm]
  funext i
  obtain ⟨p, q, rfl⟩ : ∃ (p : Fin m) (q : Fin n), i = ix2 p q := ⟨i 0, i 1, eq_ix2 i⟩
  show (mm x0 x1 (ix2 p q) + mm x2 x3 (ix2 p q)) + broadcastTo ⟨2, ![m, n]⟩ x4 hb (ix2 p q) = _
  rw [broadcastTo_rows_apply]; rfl

/-- The host's gate before the activation: two dot_generals added, plus the bias vector broadcast to a row and down
    the rows. -/
theorem hostGatePre {m k n : Nat} (A : FVec Ideal ⟨2, ![m, k]⟩ .f32) (X : FVec Ideal ⟨2, ![k, n]⟩ .f32)
    (B : FVec Ideal ⟨2, ![m, k]⟩ .f32) (H : FVec Ideal ⟨2, ![k, n]⟩ .f32) (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (addf (Host.dotGeneral (DotDims.plain m k n) none A X) (Host.dotGeneral (DotDims.plain m k n) none B H))
        (broadcastInDim ⟨2, ![m, n]⟩ ![0, 1] h1 (broadcastInDim ⟨2, ![1, n]⟩ ![1] h2 b))
      = gatePre A X B H (shapeCast ⟨2, ![1, n]⟩ b hs) := by
  rw [Cert.BiasRow.hostBias _ b h1 h2 hs, hostDot_eq_mm, hostDot_eq_mm]; rfl

theorem gatePre_entry_congr {tm k tn M N : Nat} (x0 : (⟨2, ![tm, k]⟩ : Shape).Idx → EReal)
    (x1 : (⟨2, ![k, tn]⟩ : Shape).Idx → EReal) (x2 : (⟨2, ![tm, k]⟩ : Shape).Idx → EReal)
    (x3 : (⟨2, ![k, tn]⟩ : Shape).Idx → EReal) (x4 : (⟨2, ![1, tn]⟩ : Shape).Idx → EReal)
    (A : (⟨2, ![M, k]⟩ : Shape).Idx → EReal) (X : (⟨2, ![k, N]⟩ : Shape).Idx → EReal)
    (B : (⟨2, ![M, k]⟩ : Shape).Idx → EReal) (H : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = X (ix2 c j))
    (h2 : ∀ c, x2 (ix2 p c) = B (ix2 i c)) (h3 : ∀ c, x3 (ix2 c q) = H (ix2 c j))
    (h4 : x4 (ix2 (0 : Fin 1) q) = b (ix2 (0 : Fin 1) j)) :
    gatePre x0 x1 x2 x3 x4 (ix2 p q) = gatePre A X B H b (ix2 i j) := by
  rw [gatePre_apply, gatePre_apply, h4]
  refine congrArg (· + _) (congrArg₂ (· + ·) (Finset.sum_congr rfl fun c _ => by rw [h0 c, h1 c])
    (Finset.sum_congr rfl fun c _ => by rw [h2 c, h3 c]))

/-- The entrywise product of two arrays. -/
def had {s : Shape} (X Y : s.Idx → EReal) : s.Idx → EReal := fun i => X i * Y i

/-- Twice the logistic function, entry by entry (the factor kept as its bit pattern). -/
def sig2 {s : Shape} (X : s.Idx → EReal) : s.Idx → EReal :=
  fun i => Ideal.ofBits .f32 0x40000000#32 * Ideal.logistic (X i)

/-- Entry (p, q) of the dense layer of blocks is entry (i, j) of the dense layer of the whole arrays when row p of
    the first block is row i of A, column q of the second is column j of W, and the bias entries agree. -/
theorem dense_entry_congr {tm k tn M N : Nat} (x0 : (⟨2, ![tm, k]⟩ : Shape).Idx → EReal)
    (x1 : (⟨2, ![k, tn]⟩ : Shape).Idx → EReal) (x2 : (⟨2, ![1, tn]⟩ : Shape).Idx → EReal)
    (A : (⟨2, ![M, k]⟩ : Shape).Idx → EReal) (W : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = W (ix2 c j))
    (h2 : x2 (ix2 (0 : Fin 1) q) = b (ix2 (0 : Fin 1) j)) :
    dense x0 x1 x2 (ix2 p q) = dense A W b (ix2 i j) := by
  rw [dense_apply, dense_apply, h2]
  exact congrArg (· + _) (Finset.sum_congr rfl fun c _ => by rw [h0 c, h1 c])

/-- The bit pattern of one. -/
theorem ofBits_one : Ideal.ofBits .f32 0x3F800000#32 = 1 := by
  simp [Ideal.ofBits, Ideal.ieee, -EReal.coe_mul]; norm_num

/-- The host's expansion of the sigmoid, 1 / (1 + exp (-x)) with both ones broadcast scalars, is the logistic
    function at every entry. -/
theorem hostSigmoid {s : Shape} (X : FVec Ideal s .f32) (h : (⟨0, ![]⟩ : Shape).BroadcastsInDim s ![]) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf X)))
      = logistic X := by
  funext i
  show FloatOps.hostDivf (broadcastInDim s ![] h (constant (F := Ideal) ⟨0, ![]⟩ .f32 0x3F800000#32) i)
      (FloatOps.addf (broadcastInDim s ![] h (constant (F := Ideal) ⟨0, ![]⟩ .f32 0x3F800000#32) i)
        (FloatOps.hostUnary .exp (FloatOps.hostNegf (X i)))) = FloatOps.logistic (X i)
  rw [Cert.LibHostBroadcast.bcast_scalar_apply]
  show FloatOps.hostDivf (Ideal.ofBits .f32 0x3F800000#32) (FloatOps.addf (Ideal.ofBits .f32 0x3F800000#32) _) = _
  rw [ofBits_one]; rfl

/-- The host's doubled sigmoid: the scalar two broadcast, times the expansion of the sigmoid. -/
theorem hostSig2 {s : Shape} (X : FVec Ideal s .f32) (h : (⟨0, ![]⟩ : Shape).BroadcastsInDim s ![]) :
    mulf (broadcastInDim s ![] h (constant (F := Ideal) ⟨0, ![]⟩ .f32 0x40000000#32))
        (Host.divf (broadcastInDim s ![] h (constant (F := Ideal) ⟨0, ![]⟩ .f32 0x3F800000#32))
          (addf (broadcastInDim s ![] h (constant (F := Ideal) ⟨0, ![]⟩ .f32 0x3F800000#32)) (Host.exp (Host.negf X))))
      = sig2 X := by
  rw [hostSigmoid]
  funext i
  show FloatOps.mulf (broadcastInDim s ![] h (constant (F := Ideal) ⟨0, ![]⟩ .f32 0x40000000#32) i) (FloatOps.logistic (X i)) = _
  rw [Cert.LibHostBroadcast.bcast_scalar_apply]; rfl

/-- A kernel's doubled sigmoid: the scalar two splat, times the logistic operation. -/
theorem kernelSig2 {s : Shape} (X : FVec Ideal s .f32) :
    mulf (broadcast s (Scalar.ofBits (F := Ideal) .f32 0x40000000#32)) (logistic X) = sig2 X := rfl

/-- A dense layer whose bias row is zero is the product. -/
theorem dense_zero {m k n : Nat} (A : (⟨2, ![m, k]⟩ : Shape).Idx → EReal) (W : (⟨2, ![k, n]⟩ : Shape).Idx → EReal)
    (z : (⟨2, ![1, n]⟩ : Shape).Idx → EReal) (hz : ∀ i, z i = 0) : dense A W z = mm A W := by
  funext i
  show mm A W i + z _ = _
  rw [hz, add_zero]

end Cert.LibDense

end
-- ==== Proof.LibKeepdims.lean ====
/-
  Sums along one axis and the small layout changes around them, read at an entry over the extended reals:
  an [a, b] array summed along either axis, an [n, a, b] array summed along its first axis, a vector [a] viewed as a
  column [a, 1], a [1, 1] array spread over [a, b], an [n, a, b] array viewed with two leading unit axes, and a sum over
  the indices of a vector as a sum over its coordinate.
-/
import Idealize.ShloMosaic.Lib.ValueIdx
import Idealize.ShloMosaic.Lib.ValueLayout
import Idealize.ShloMosaic.Lib.Pipeline.Value
import Idealize.ShloMosaic.PureOps.Ideal.Laws

namespace Cert.LibKeepdims

open Idealize.ShloMosaic Idealize.ShloMosaic.ValueIdx

variable {φ : FTy} {α : Type}

/-- An [a, b] array summed along its second axis: entry i is the sum over j of the entries (i, j). -/
theorem sum_axis1_apply {a b : Nat} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ v acc h hφ hacc (ix1 i) = ∑ j : Fin b, v (ix2 i j) :=
  (Ideal.multiReduction_add_single v acc h hφ hacc (ix1 i)).trans
    (Finset.sum_congr rfl fun j _ => congrArg v (funext fun d => Fin.ext (by
      match d with
      | ⟨0, _⟩ => rfl
      | ⟨1, _⟩ => rfl)))

/-- An [a, b] array summed along its first axis: entry j is the sum over i of the entries (i, j). -/
theorem sum_axis0_apply {a b : Nat} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ v acc h hφ hacc (ix1 j) = ∑ i : Fin a, v (ix2 i j) :=
  (Ideal.multiReduction_add_single v acc h hφ hacc (ix1 j)).trans
    (Finset.sum_congr rfl fun i _ => congrArg v (funext fun d => Fin.ext (by
      match d with
      | ⟨0, _⟩ => rfl
      | ⟨1, _⟩ => rfl)))

/-- An [n, a, b] array summed along its first axis: entry (x, y) is the sum over z of the entries (z, x, y). -/
theorem sum3_axis0_apply {n a b : Nat} (v : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (x : Fin a) (y : Fin b) :
    multiReduction .add [0] ⟨2, ![a, b]⟩ v acc h hφ hacc (ix2 x y) = ∑ z : Fin n, v (ix3 z x y) :=
  (Ideal.multiReduction_add_single v acc h hφ hacc (ix2 x y)).trans
    (Finset.sum_congr rfl fun z _ => congrArg v (funext fun d => Fin.ext (by
      match d with
      | ⟨0, _⟩ => rfl
      | ⟨1, _⟩ => rfl
      | ⟨2, _⟩ => rfl)))

/-- A vector [a] viewed as a column [a, 1]: entry (i, 0) is entry i. -/
theorem column_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array spread over [a, b]: every entry is its one entry. -/
theorem spread_apply {a b : Nat} (x : (⟨2, ![1, 1]⟩ : Shape).Idx → α) (h : (⟨2, ![1, 1]⟩ : Shape).Broadcasts ⟨2, ![a, b]⟩)
    (r : Fin a) (l : Fin b) : broadcastTo ⟨2, ![a, b]⟩ x h (ix2 r l) = x (ix2 (0 : Fin 1) (0 : Fin 1)) := by
  refine broadcastTo_apply x h (ix2 r l) (ix2 (0 : Fin 1) (0 : Fin 1)) fun ax => ?_
  match ax with
  | ⟨0, _⟩ => show (0 : Nat) = if (1 : Nat) = 1 then 0 else _; rw [if_pos rfl]
  | ⟨1, _⟩ => show (0 : Nat) = if (1 : Nat) = 1 then 0 else _; rw [if_pos rfl]

/-- A [1, 1, n, a, b] array viewed as [n, a, b]: entry (z, x, y) is entry (0, 0, z, x, y). -/
theorem drop2_apply {n a b : Nat} (x : (⟨5, ![1, 1, n, a, b]⟩ : Shape).Idx → α)
    (h : (⟨5, ![1, 1, n, a, b]⟩ : Shape).ShapeCasts ⟨3, ![n, a, b]⟩) (z : Fin n) (p : Fin a) (q : Fin b) :
    shapeCast ⟨3, ![n, a, b]⟩ x h (ix3 z p q) = x (ix5 (0 : Fin 1) (0 : Fin 1) z p q) :=
  shapeCast_apply x h _ _ (by
    rw [Shape.rowMajor_val_five, Shape.rowMajor_val_three]
    show ((((0 * 1 + 0) * n + z.val) * a + p.val) * b + q.val) = (z.val * a + p.val) * b + q.val
    simp only [Nat.zero_mul, Nat.zero_add])

/-- A sum over the indices of a vector [n] is the sum over its one coordinate. -/
theorem sum_idx1 {M : Type*} [AddCommMonoid M] {n : Nat} (f : (⟨1, ![n]⟩ : Shape).Idx → M) :
    ∑ i, f i = ∑ a : Fin n, f (ix1 a) :=
  (Equiv.sum_comp ((⟨fun i => i 0, ix1, fun i => (eq_ix1 i).symm, fun _ => rfl⟩ :
    (⟨1, ![n]⟩ : Shape).Idx ≃ Fin n).symm) f).symm

end Cert.LibKeepdims
-- ==== Proof.LibColumnBroadcast.lean ====
/-
  A column read back from its broadcast.
-/
import Idealize.ShloMosaic.Lib.Pipeline.Value
import Idealize.ShloMosaic.Lib.ValueIdx

namespace Cert.LibColumnBroadcast

open Idealize.ShloMosaic Idealize.ShloMosaic.ValueIdx

/-- An `[a, 1]` column broadcast to `[a, b]` reads, at `(p, c)`, the column's entry of row `p`:
    the unit axis contributes coordinate zero, the long axis its own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnBroadcast
-- ==== Proof.KernelRows.lean ====
/-
  The kernel body, entry by entry.

  At one grid point the body loads a block of 2000 rows of x and of the aggregated messages, the two weight arrays
  and the four one-row arrays (two biases, scale, shift), and stores one block of 2000 rows. Entry (p, q) of what it
  stores is entry q of the new feature row (`Cert.RowNet.rowOut`) of row p of the two loaded blocks: the two matrix
  products are plain products into a zero accumulator, the changes of float format between them are the identity on
  the extended reals, the lane sums are sums over the 256 entries of a row, and the broadcasts of the per-row mean,
  of the per-row inverse deviation and of the one-row arrays read the row's own entry.
-/
import proofs.«123430_j12180527252066_2_alg».proof.Proof.Gen.KernelIdeal.Skeleton
import proofs.«123430_j12180527252066_2_alg».proof.Proof.LibDense
import proofs.«123430_j12180527252066_2_alg».proof.Proof.LibKeepdims
import proofs.«123430_j12180527252066_2_alg».proof.Proof.LibColumnBroadcast
import proofs.«123430_j12180527252066_2_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Cert.KernelIdeal Cert.KernelIdeal.Gen Cert.RowNet Idealize.ShloMosaic Idealize.ShloMosaic.ValueIdx

/-- A change of float format is the identity on the extended reals. -/
theorem truncf_ideal {s : Shape} {φ ψ : FTy} (x : FVec Ideal s φ) (h : ψ.bits < φ.bits) :
    truncf (F := Ideal) ψ x h = x := rfl

/-- One layer of the body at an entry: a plain product into the zero accumulator, the bias row broadcast down the
    rows, and the maximum with a splat zero, is `relu` of the linear layer of the row. -/
theorem layer_apply {m : Nat} {φ₁ φ₂ : FTy} (A : FVec Ideal ⟨2, ![m, 256]⟩ φ₁) (W : FVec Ideal ⟨2, ![256, 256]⟩ φ₂)
    (b : FVec Ideal ⟨2, ![1, 256]⟩ .f32) (hb : (⟨2, ![1, 256]⟩ : Shape).Broadcasts ⟨2, ![m, 256]⟩) (p : Fin m) (q : Fin 256) :
    maximumf (addf (matmul (DotDims.plain m 256 256) none A W (constant (F := Ideal) ⟨2, ![m, 256]⟩ .f32 0x00000000#32))
        (broadcastTo ⟨2, ![m, 256]⟩ b hb)) (broadcast ⟨2, ![m, 256]⟩ (Scalar.ofBits (F := Ideal) .f32 0x00000000#32)) (ix2 p q)
      = relu (lin W b (fun c => A (ix2 p c)) q) := by
  rw [Cert.LibDense.kernelDense]
  show max (Cert.LibDense.dense A W b (ix2 p q)) _ = _
  rw [Cert.LibDense.dense_apply]; rfl

/-- The residual row: entry (p, q) of the body's value before normalisation. -/
theorem resid_apply (v0 v1 : Vec Ideal S2000x256 .f32) (v5 : Vec Ideal S256x256 .bf16) (v8 : Vec Ideal S1x256 .f32)
    (v15 : Vec Ideal S256x256 .bf16) (v18 : Vec Ideal S1x256 .f32) (p : Fin 2000) (q : Fin 256) :
    k0_pay2 (F := Ideal) v0 v1 v5 v8 v15 v18 (ix2 p q)
      = resid v5 v8 v15 v18 (fun c => v0 (ix2 p c)) (fun c => v1 (ix2 p c)) q := by
  unfold k0_pay2
  simp only [shapeCast_self, truncf_ideal]
  show v0 (ix2 p q) + _ = _
  unfold resid
  refine congrArg (v0 (ix2 p q) + ·) ?_
  refine (layer_apply _ v15 v18 _ p q).trans ?_
  refine congrArg relu (congrArg (fun f => lin v15 v18 f q) (funext fun c => ?_))
  exact layer_apply _ v5 v8 _ p c

/-- A lane sum of an [a, b] array with the zero accumulator, at row i: the sum over the row's entries. -/
theorem rowSum_apply {a b : Nat} (v : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction .add [1] ⟨1, ![a]⟩ v 0x00000000#32 h hφ hacc (ix1 i) = ∑ j : Fin b, v (ix2 i j) :=
  Cert.LibKeepdims.sum_axis1_apply v 0x00000000#32 h hφ hacc i

/-- The per-row mean the body keeps as a column: entry (p, 0) is the mean of row p of the residual block. -/
theorem mean_apply (v0 v1 : Vec Ideal S2000x256 .f32) (v5 : Vec Ideal S256x256 .bf16) (v8 : Vec Ideal S1x256 .f32)
    (v15 : Vec Ideal S256x256 .bf16) (v18 : Vec Ideal S1x256 .f32) (p : Fin 2000) (u : Fin 1) :
    k0_pay3 (F := Ideal) v0 v1 v5 v8 v15 v18 (ix2 p u)
      = mean (fun j => k0_pay2 (F := Ideal) v0 v1 v5 v8 v15 v18 (ix2 p j)) := by
  unfold k0_pay3
  show Ideal.div (shapeCast S2000x1 _ _ (ix2 p u)) _ = _
  rw [Cert.LibKeepdims.column_apply]
  exact congrArg (fun s => Ideal.div s c256) (rowSum_apply _ _ _ _ p)

/-- The centred block: entry (p, q) is the residual entry minus its row's mean. -/
theorem centred_apply (v0 v1 : Vec Ideal S2000x256 .f32) (v5 : Vec Ideal S256x256 .bf16) (v8 : Vec Ideal S1x256 .f32)
    (v15 : Vec Ideal S256x256 .bf16) (v18 : Vec Ideal S1x256 .f32) (p : Fin 2000) (q : Fin 256) :
    k0_pay5 (F := Ideal) v0 v1 v5 v8 v15 v18 (ix2 p q)
      = k0_pay2 (F := Ideal) v0 v1 v5 v8 v15 v18 (ix2 p q)
        - mean (fun j => k0_pay2 (F := Ideal) v0 v1 v5 v8 v15 v18 (ix2 p j)) := by
  unfold k0_pay5
  show _ - broadcastTo S2000x256 _ _ (ix2 p q) = _
  rw [Cert.LibColumnBroadcast.broadcastTo_a1_ab_apply, mean_apply]

/-- The per-row variance the body keeps as a column: entry (p, 0) is the mean square of the centred row p. -/
theorem variance_apply (v0 v1 : Vec Ideal S2000x256 .f32) (v5 : Vec Ideal S256x256 .bf16) (v8 : Vec Ideal S1x256 .f32)
    (v15 : Vec Ideal S256x256 .bf16) (v18 : Vec Ideal S1x256 .f32) (p : Fin 2000) (u : Fin 1) :
    k0_pay4 (F := Ideal) v0 v1 v5 v8 v15 v18 (ix2 p u)
      = variance (fun j => k0_pay2 (F := Ideal) v0 v1 v5 v8 v15 v18 (ix2 p j)) := by
  unfold k0_pay4
  show Ideal.div (shapeCast S2000x1 _ _ (ix2 p u)) _ = _
  rw [Cert.LibKeepdims.column_apply]
  refine (congrArg (fun s => Ideal.div s c256) (rowSum_apply _ _ _ _ p)).trans ?_
  unfold variance
  refine congrArg (fun s => Ideal.div s c256) (Finset.sum_congr rfl fun j _ => ?_)
  show (_ - broadcastTo S2000x256 _ _ (ix2 p j)) * (_ - broadcastTo S2000x256 _ _ (ix2 p j)) = _
  rw [Cert.LibColumnBroadcast.broadcastTo_a1_ab_apply, mean_apply]

/-- The last step at an entry: the centred entry times the row's inverse deviation, scaled and shifted by the
    entries of the two one-row arrays in its column. -/
theorem norm_apply (v35 : FVec Ideal S2000x1 .f32) (v37 : FVec Ideal S2000x256 .f32) (v43 v47 : Vec Ideal S1x256 .f32)
    (p : Fin 2000) (q : Fin 256) :
    k0_pay1 (F := Ideal) v35 v37 (Scalar.ofBits .f32 0x3727C5AC#32) v43 v47 (ix2 p q)
      = v37 (ix2 p q) * Ideal.rsqrt (v35 (ix2 p (0 : Fin 1)) + eps) * v43 (ix2 (0 : Fin 1) q) + v47 (ix2 (0 : Fin 1) q) := by
  unfold k0_pay1
  simp only [shapeCast_self]
  show v37 (ix2 p q) * broadcastTo S2000x256 _ _ (ix2 p q) * broadcastTo S2000x256 v43 _ (ix2 p q)
      + broadcastTo S2000x256 v47 _ (ix2 p q) = _
  rw [Cert.LibColumnBroadcast.broadcastTo_a1_ab_apply, Cert.LibDense.broadcastTo_rows_apply,
    Cert.LibDense.broadcastTo_rows_apply]
  rfl

/-- What the body stores, entry by entry: the array of new rows of its loaded blocks. -/
theorem payload_eq (x0 x1 : Vec Ideal S2000x256 .f32) (x2 : Vec Ideal S256x256 .bf16) (x3 : Vec Ideal S1x256 .f32)
    (x4 : Vec Ideal S256x256 .bf16) (x5 x6 x7 : Vec Ideal S1x256 .f32) :
    k0_pay1 (F := Ideal) (k0_pay4 x0 x1 x2 x3 x4 x5) (k0_pay5 x0 x1 x2 x3 x4 x5) (Scalar.ofBits .f32 0x3727C5AC#32) x6 x7
      = arrayOut x0 x1 x2 x3 x4 x5 x6 x7 := by
  funext i
  obtain ⟨p, q, rfl⟩ : ∃ (p : Fin 2000) (q : Fin 256), i = ix2 p q := ⟨i 0, i 1, eq_ix2 i⟩
  rw [norm_apply, centred_apply, variance_apply, arrayOut_apply]
  have hR : (fun j => k0_pay2 (F := Ideal) x0 x1 x2 x3 x4 x5 (ix2 p j))
      = resid x2 x3 x4 x5 (fun c => x0 (ix2 p c)) (fun c => x1 (ix2 p c)) :=
    funext fun j => resid_apply x0 x1 x2 x3 x4 x5 p j
  show layerNorm x6 x7 (fun j => k0_pay2 (F := Ideal) x0 x1 x2 x3 x4 x5 (ix2 p j)) q = _
  rw [hR]; rfl

end Cert.KernelRows

end
-- ==== Proof.RefRows.lean ====
/-
  The reference program, entry by entry.

  The reference computes the whole [50000, 256] result at once: the aggregated messages by a gather and a
  scatter-add, then z = x + aggr, two dense layers with relu, the residual sum with x, and layer normalisation of
  every row. Entry (p, q) of its result is entry q of the new feature row (`Cert.RowNet.rowOut`) of row p of x and
  row p of the aggregated messages. The aggregated-message array is kept as the one term the program computes it
  by; nothing of the gather or the scatter-add is opened.
-/
import proofs.«123430_j12180527252066_2_alg».proof.Proof.Gen.ReferenceIdeal.Read
import proofs.«123430_j12180527252066_2_alg».proof.Proof.LibDense
import proofs.«123430_j12180527252066_2_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Cert.ReferenceIdeal Cert.ReferenceIdeal.Read Cert.RowNet Idealize.ShloMosaic Idealize.ShloMosaic.ValueIdx

/-- A vector of length 256 laid out as one row. -/
abbrev rowOf (b : FVec Ideal S256 .f32) : Row := shapeCast ⟨2, ![1, 256]⟩ b (by decide)

/-- One layer of the reference at an entry: a plain dot_general, the bias vector broadcast to a row and down the
    rows, and the maximum with a broadcast zero, is `relu` of the linear layer of the row. -/
theorem hostLayer_apply {m : Nat} (A : FVec Ideal ⟨2, ![m, 256]⟩ .f32) (W : FVec Ideal ⟨2, ![256, 256]⟩ .f32)
    (b : FVec Ideal ⟨1, ![256]⟩ .f32)
    (h1 : (⟨2, ![1, 256]⟩ : Shape).BroadcastsInDim ⟨2, ![m, 256]⟩ ![0, 1])
    (h2 : (⟨1, ![256]⟩ : Shape).BroadcastsInDim ⟨2, ![1, 256]⟩ ![1])
    (h0 : (⟨0, ![]⟩ : Shape).BroadcastsInDim ⟨2, ![m, 256]⟩ ![]) (p : Fin m) (q : Fin 256) :
    maximumf (addf (Host.dotGeneral (DotDims.plain m 256 256) none A W)
        (broadcastInDim ⟨2, ![m, 256]⟩ ![0, 1] h1 (broadcastInDim ⟨2, ![1, 256]⟩ ![1] h2 b)))
      (broadcastInDim ⟨2, ![m, 256]⟩ ![] h0 (constant (F := Ideal) ⟨0, ![]⟩ .f32 0x00000000#32)) (ix2 p q)
      = relu (lin W (rowOf b) (fun c => A (ix2 p c)) q) := by
  rw [Cert.LibDense.hostDense A W b h1 h2 (by decide)]
  show max (Cert.LibDense.dense A W _ (ix2 p q))
    (broadcastInDim ⟨2, ![m, 256]⟩ ![] h0 (constant (F := Ideal) ⟨0, ![]⟩ .f32 0x00000000#32) (ix2 p q)) = _
  rw [Cert.LibDense.dense_apply, Cert.LibHostBroadcast.bcast_scalar_apply]; rfl

/-- The aggregated messages, as the reference computes them (gather, add, relu, scatter-add): kept whole. -/
abbrev aggr (x0 : FVec Ideal S50000x256 .f32) (x1 : IVec S2x800000 32) (x2 : FVec Ideal S800000x256 .f32) :
    FVec Ideal S50000x256 .f32 := val_main_v15 (F := Ideal) x0 x1 x2

/-- The residual row of the reference: entry (p, q) before normalisation. -/
theorem resid_apply (x0 : FVec Ideal S50000x256 .f32) (x1 : IVec S2x800000 32) (x2 : FVec Ideal S800000x256 .f32)
    (x3 : FVec Ideal S256x256 .f32) (x4 : FVec Ideal S256 .f32) (x5 : FVec Ideal S256x256 .f32) (x6 : FVec Ideal S256 .f32)
    (p : Fin 50000) (q : Fin 256) :
    val_main_v27 (F := Ideal) x0 x1 x2 x3 x4 x5 x6 (ix2 p q)
      = resid x3 (rowOf x4) x5 (rowOf x6) (fun c => x0 (ix2 p c)) (fun c => aggr x0 x1 x2 (ix2 p c)) q := by
  unfold val_main_v27 val_main_v26 val_main_v25 val_main_v24 val_main_v23 val_main_v22 val_main_call2_v0 val_main_call2_cst
  show x0 (ix2 p q) + _ = _
  unfold resid
  refine congrArg (x0 (ix2 p q) + ·) ?_
  refine (hostLayer_apply _ x5 x6 _ _ _ p q).trans ?_
  refine congrArg relu (congrArg (fun f => lin x5 (rowOf x6) f q) (funext fun c => ?_))
  unfold val_main_v21 val_main_v20 val_main_v19 val_main_v18 val_main_v17 val_main_call1_v0 val_main_call1_cst
  exact hostLayer_apply _ x3 x4 _ _ _ p c

/-- The reference's result at an entry: layer normalisation of the residual row. -/
theorem out_apply (x0 : FVec Ideal S50000x256 .f32) (x1 : IVec S2x800000 32) (x2 : FVec Ideal S800000x256 .f32)
    (x3 : FVec Ideal S256x256 .f32) (x4 : FVec Ideal S256 .f32) (x5 : FVec Ideal S256x256 .f32) (x6 x7 x8 : FVec Ideal S256 .f32)
    (p : Fin 50000) (q : Fin 256) :
    val_main_v51 (F := Ideal) x0 x1 x2 x3 x4 x5 x6 x7 x8 (ix2 p q)
      = layerNorm (rowOf x7) (rowOf x8) (fun j => val_main_v27 (F := Ideal) x0 x1 x2 x3 x4 x5 x6 (ix2 p j)) q := by
  simp only [val_main_v51_apply, val_main_v50_apply, val_main_v49_apply, val_main_v48_apply, val_main_v47_apply, val_main_v46_apply,
    val_main_v45_apply, val_main_v44_apply, val_main_v43_apply, val_main_v42_apply, val_main_v41_apply, val_main_cst_5_apply,
    val_main_v40_apply, val_main_v39_apply, val_main_v38_apply, val_main_v37_apply, val_main_cst_4_apply, val_main_v36_apply,
    val_main_v35_apply, val_main_cst_3_apply, val_main_v34_apply, val_main_v33_apply, val_main_v32_apply, val_main_v31_apply,
    val_main_v30_apply, val_main_cst_2_apply, val_main_v29_apply, val_main_v28_apply, val_main_cst_1_apply]
  have e1 : ∀ k : Fin 256, idx_main_v28 (idx_main_v29 (idx_main_v39 (ix2 p q))) k = ix2 p k := fun k =>
    funext fun a => Fin.ext (by match a with | ⟨0, _⟩ => rfl | ⟨1, _⟩ => rfl)
  have e2 : ∀ k : Fin 256, idx_main_v35 (idx_main_v36 (idx_main_v44 (ix2 p q))) k = ix2 p k := fun k =>
    funext fun a => Fin.ext (by match a with | ⟨0, _⟩ => rfl | ⟨1, _⟩ => rfl)
  have e3 : ∀ k k1 : Fin 256, idx_main_v28 (idx_main_v29 (idx_main_v32 (ix2 p k))) k1 = ix2 p k1 := fun k k1 =>
    funext fun a => Fin.ext (by match a with | ⟨0, _⟩ => rfl | ⟨1, _⟩ => rfl)
  have e4 : idx_main_v46 (idx_main_v47 (ix2 p q)) = ix1 q :=
    funext fun a => Fin.ext (by match a with | ⟨0, _⟩ => rfl)
  have e5 : idx_main_v49 (idx_main_v50 (ix2 p q)) = ix1 q :=
    funext fun a => Fin.ext (by match a with | ⟨0, _⟩ => rfl)
  simp only [e1, e2, e3, e4, e5, Ideal.ofBits_def, Ideal.ofBits_zero_f32, zero_add]
  unfold layerNorm variance mean c256 eps rowOf
  rw [shapeCast_a_1a_apply, shapeCast_a_1a_apply]
  rfl

/-- The reference's result is the array of new rows of x and the aggregated messages. -/
theorem result_eq (x0 : FVec Ideal S50000x256 .f32) (x1 : IVec S2x800000 32) (x2 : FVec Ideal S800000x256 .f32)
    (x3 : FVec Ideal S256x256 .f32) (x4 : FVec Ideal S256 .f32) (x5 : FVec Ideal S256x256 .f32) (x6 x7 x8 : FVec Ideal S256 .f32) :
    val_main_v51 (F := Ideal) x0 x1 x2 x3 x4 x5 x6 x7 x8
      = arrayOut x0 (aggr x0 x1 x2) x3 (rowOf x4) x5 (rowOf x6) (rowOf x7) (rowOf x8) := by
  funext i
  obtain ⟨p, q, rfl⟩ : ∃ (p : Fin 50000) (q : Fin 256), i = ix2 p q := ⟨i 0, i 1, eq_ix2 i⟩
  rw [out_apply, arrayOut_apply]
  have hR : (fun j => val_main_v27 (F := Ideal) x0 x1 x2 x3 x4 x5 x6 (ix2 p j))
      = resid x3 (rowOf x4) x5 (rowOf x6) (fun c => x0 (ix2 p c)) (fun c => aggr x0 x1 x2 (ix2 p c)) :=
    funext fun j => resid_apply x0 x1 x2 x3 x4 x5 x6 p j
  rw [hR]; rfl

end Cert.RefRows

end
-- ==== Proof.HostArrays.lean ====
/-
  What the kernel's input windows hold when the region is entered.

  Before the region the program computes the aggregated messages (gather, add, relu, scatter-add into a zero
  array), casts the two weight arrays to a narrower float format and lays the four vectors out as one-row arrays.
  On the extended reals the cast is the identity, so the weight windows hold the weight arguments themselves; the
  one-row arrays are the vectors reshaped; and the aggregated-message array is, operation for operation, the array
  the reference computes before its own dense layers, so it is named by the reference's term and never opened.
-/
import proofs.«123430_j12180527252066_2_alg».proof.Proof.Gen.KernelIdeal.Frame
import proofs.«123430_j12180527252066_2_alg».proof.Proof.Gen.ReferenceIdeal.Read
import Idealize.ShloMosaic.Lib.StableHlo.Run
import Idealize.ShloMosaic.Lib.Tactic

noncomputable section

namespace Cert.HostArrays

open Cert.KernelIdeal Cert.KernelIdeal.Gen Idealize.ShloMosaic Idealize.ShloMosaic.TcCoe Idealize.SL.Sem

variable (m : (ℓ : Loc nD τ sig) → Buf (Elt Ideal) ℓ)

/-- The aggregated-message window holds the reference's aggregated-message array of the same arguments. -/
theorem aggr_eq (c : Dev nD) :
    (V m c main_v15 : S50000x256.Idx → EReal)
      = Cert.ReferenceIdeal.Read.val_main_v15 (F := Ideal) (m ((c : Thread nD τ).loc main_arg0))
          (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  rfl

/-- The first weight window holds the first weight argument (the cast is the identity). -/
theorem w1_eq (c : Dev nD) :
    (V m c main_v16 : S256x256.Idx → EReal) = (m ((c : Thread nD τ).loc main_arg3) : S256x256.Idx → EReal) := by
  dsimp only [V]
  simp only [hostOps0, hostOps0_1, hostOps0_2, List.flatten_cons, List.flatten_nil, List.append_nil, List.cons_append,
    List.nil_append]
  after_results_simp
  rfl

/-- The second weight window holds the second weight argument. -/
theorem w2_eq (c : Dev nD) :
    (V m c main_v17 : S256x256.Idx → EReal) = (m ((c : Thread nD τ).loc main_arg5) : S256x256.Idx → EReal) := by
  dsimp only [V]
  simp only [hostOps0, hostOps0_1, hostOps0_2, List.flatten_cons, List.flatten_nil, List.append_nil, List.cons_append,
    List.nil_append]
  after_results_simp
  rfl

/-- The first bias window holds the first bias vector reshaped to one row. -/
theorem b1_eq (c : Dev nD) :
    (V m c main_v18 : S1x256.Idx → EReal)
      = shapeCast S1x256 (m ((c : Thread nD τ).loc main_arg4) : S256.Idx → EReal) shapeCasts_S256_S1x256 := by
  dsimp only [V]
  simp only [hostOps0, hostOps0_1, hostOps0_2, List.flatten_cons, List.flatten_nil, List.append_nil, List.cons_append,
    List.nil_append]
  after_results_simp
  rfl

/-- The second bias window holds the second bias vector reshaped to one row. -/
theorem b2_eq (c : Dev nD) :
    (V m c main_v19 : S1x256.Idx → EReal)
      = shapeCast S1x256 (m ((c : Thread nD τ).loc main_arg6) : S256.Idx → EReal) shapeCasts_S256_S1x256 := by
  dsimp only [V]
  simp only [hostOps0, hostOps0_1, hostOps0_2, List.flatten_cons, List.flatten_nil, List.append_nil, List.cons_append,
    List.nil_append]
  after_results_simp
  rfl

/-- The scale window holds the scale vector reshaped to one row. -/
theorem gamma_eq (c : Dev nD) :
    (V m c main_v20 : S1x256.Idx → EReal)
      = shapeCast S1x256 (m ((c : Thread nD τ).loc main_arg7) : S256.Idx → EReal) shapeCasts_S256_S1x256 := by
  dsimp only [V]
  simp only [hostOps0, hostOps0_1, hostOps0_2, List.flatten_cons, List.flatten_nil, List.append_nil, List.cons_append,
    List.nil_append]
  after_results_simp
  rfl

/-- The shift window holds the shift vector reshaped to one row. -/
theorem beta_eq (c : Dev nD) :
    (V m c main_v21 : S1x256.Idx → EReal)
      = shapeCast S1x256 (m ((c : Thread nD τ).loc main_arg8) : S256.Idx → EReal) shapeCasts_S256_S1x256 := by
  dsimp only [V]
  simp only [hostOps0, hostOps0_1, hostOps0_2, List.flatten_cons, List.flatten_nil, List.append_nil, List.cons_append,
    List.nil_append]
  after_results_simp
  rfl

/-! ## The same facts for the arrays as the call's windows name them

The call's window w stages the array of the buffer `Pipeline.arrRef spec0 w`, which is the buffer named in the
program's call line. The region's contents of a buffer depend on the buffer only, so equal references have equal
contents; the contents themselves are never compared. -/

theorem win_heq (c : Dev nD) (b b' : Ref sig .tc) (h : b = b') : HEq (V m c b) (V m c b') := by
  subst h; exact HEq.rfl

theorem x_win (c : Dev nD) :
    (V m c (Pipeline.arrRef spec0 0) : S50000x256.Idx → EReal)
      = (m ((c : Thread nD τ).loc main_arg0) : S50000x256.Idx → EReal) :=
  eq_of_heq ((win_heq m c (Pipeline.arrRef spec0 0) main_arg0 rfl).trans (heq_of_eq (V_main_arg0 m c)))

theorem aggr_win (c : Dev nD) :
    (V m c (Pipeline.arrRef spec0 1) : S50000x256.Idx → EReal)
      = Cert.ReferenceIdeal.Read.val_main_v15 (F := Ideal) (m ((c : Thread nD τ).loc main_arg0))
          (m ((c : Thread nD τ).loc main_arg1)) (m ((c : Thread nD τ).loc main_arg2)) :=
  eq_of_heq ((win_heq m c (Pipeline.arrRef spec0 1) main_v15 rfl).trans (heq_of_eq (aggr_eq m c)))

theorem w1_win (c : Dev nD) :
    (V m c (Pipeline.arrRef spec0 2) : S256x256.Idx → EReal) = (m ((c : Thread nD τ).loc main_arg3) : S256x256.Idx → EReal) :=
  eq_of_heq ((win_heq m c (Pipeline.arrRef spec0 2) main_v16 rfl).trans (heq_of_eq (w1_eq m c)))

theorem b1_win (c : Dev nD) :
    (V m c (Pipeline.arrRef spec0 3) : S1x256.Idx → EReal)
      = shapeCast S1x256 (m ((c : Thread nD τ).loc main_arg4) : S256.Idx → EReal) shapeCasts_S256_S1x256 :=
  eq_of_heq ((win_heq m c (Pipeline.arrRef spec0 3) main_v18 rfl).trans (heq_of_eq (b1_eq m c)))

theorem w2_win (c : Dev nD) :
    (V m c (Pipeline.arrRef spec0 4) : S256x256.Idx → EReal) = (m ((c : Thread nD τ).loc main_arg5) : S256x256.Idx → EReal) :=
  eq_of_heq ((win_heq m c (Pipeline.arrRef spec0 4) main_v17 rfl).trans (heq_of_eq (w2_eq m c)))

theorem b2_win (c : Dev nD) :
    (V m c (Pipeline.arrRef spec0 5) : S1x256.Idx → EReal)
      = shapeCast S1x256 (m ((c : Thread nD τ).loc main_arg6) : S256.Idx → EReal) shapeCasts_S256_S1x256 :=
  eq_of_heq ((win_heq m c (Pipeline.arrRef spec0 5) main_v19 rfl).trans (heq_of_eq (b2_eq m c)))

theorem gamma_win (c : Dev nD) :
    (V m c (Pipeline.arrRef spec0 6) : S1x256.Idx → EReal)
      = shapeCast S1x256 (m ((c : Thread nD τ).loc main_arg7) : S256.Idx → EReal) shapeCasts_S256_S1x256 :=
  eq_of_heq ((win_heq m c (Pipeline.arrRef spec0 6) main_v20 rfl).trans (heq_of_eq (gamma_eq m c)))

theorem beta_win (c : Dev nD) :
    (V m c (Pipeline.arrRef spec0 7) : S1x256.Idx → EReal)
      = shapeCast S1x256 (m ((c : Thread nD τ).loc main_arg8) : S256.Idx → EReal) shapeCasts_S256_S1x256 :=
  eq_of_heq ((win_heq m c (Pipeline.arrRef spec0 7) main_v21 rfl).trans (heq_of_eq (beta_eq m c)))

end Cert.HostArrays

end
-- ==== Proof.KernelBlocks.lean ====
/-
  From blocks to the whole array.

  The grid has 25 points; point t loads rows 2000 t … 2000 t + 1999 of x and of the aggregated messages, and the
  whole of the two weight arrays and of the four one-row arrays, and writes back rows 2000 t … 2000 t + 1999 of the
  result. Since a row of the result depends on the same row of the two inputs only, what point t writes back is
  that block of rows of the array of new rows (`Cert.RowNet.arrayOut`) of the whole inputs; row r is covered by
  point r / 2000; so the result array ends holding the array of new rows.
-/
import proofs.«123430_j12180527252066_2_alg».proof.Proof.Gen.KernelIdeal.Frame
import proofs.«123430_j12180527252066_2_alg».proof.Proof.Gen.KernelIdeal.Value
import proofs.«123430_j12180527252066_2_alg».proof.Proof.KernelRows
import proofs.«123430_j12180527252066_2_alg».proof.Proof.RowNet
import Idealize.ShloMosaic.Lib.Pipeline.Value
import Idealize.ShloMosaic.Lib.ValueIdx
import Idealize.ShloMosaic.Lib.Tactic

noncomputable section

namespace Cert.KernelBlocks

open Cert.KernelIdeal Cert.KernelIdeal.Gen Cert.KernelIdeal.Value Cert.RowNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- Entry j of the array of new rows of a block is entry i of the array of new rows of the whole arrays, when j is
    in row t·2000 + (its own row) of i's array, in the same column, the two row blocks are rows
    t·2000 … of the whole arrays, and the weights and one-row arrays are the same. -/
theorem block_entry (X A : S50000x256.Idx → EReal) (W1 : Mat) (b1 : Row) (W2 : Mat) (b2 g be : Row)
    (xb ab : S2000x256.Idx → EReal) (w1 : Mat) (c1 : Row) (w2 : Mat) (c2 g' be' : Row)
    (t : Nat) (j : S2000x256.Idx) (i : S50000x256.Idx)
    (hi0 : (i 0).val = t * 2000 + (j 0).val) (hi1 : (i 1).val = (j 1).val)
    (hx : ∀ (y : S2000x256.Idx) (k : S50000x256.Idx), (k 0).val = t * 2000 + (y 0).val → (k 1).val = (y 1).val → xb y = X k)
    (ha : ∀ (y : S2000x256.Idx) (k : S50000x256.Idx), (k 0).val = t * 2000 + (y 0).val → (k 1).val = (y 1).val → ab y = A k)
    (hw1 : w1 = W1) (hc1 : c1 = b1) (hw2 : w2 = W2) (hc2 : c2 = b2) (hg : g' = g) (hbe : be' = be) :
    arrayOut xb ab w1 c1 w2 c2 g' be' j = arrayOut X A W1 b1 W2 b2 g be i := by
  subst hw1 hc1 hw2 hc2 hg hbe
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  obtain rfl : s = q := Fin.ext hi1
  exact arrayOut_of_rows xb ab X A w1 c1 w2 c2 g' be' p r s
    (fun c => hx (ix2 p c) (ix2 r c) hi0 rfl) (fun c => ha (ix2 p c) (ix2 r c) hi0 rfl)

/-- The printed index maps, decided over the 25 grid points: the two row windows and the result window are at
    block (t, 0); the six whole-array windows are at block (0, 0). -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A row window's block at point t is rows 2000 t … of its array: the x window. Stated for any contents `B` of the window's array. -/
theorem blk_x (c : Dev nD) (t : Fin cfg0.N) (B : Buf (Elt Ideal) ((c : Thread nD τ).loc (Pipeline.arrRef spec0 0)))
    (y : S2000x256.Idx) (k : S50000x256.Idx)
    (hk0 : (k 0).val = t.val * 2000 + (y 0).val) (hk1 : (k 1).val = (y 1).val) :
    (((cfg0.win 0).blk t).view.read (Elt Ideal) B : S2000x256.Idx → EReal) y = (B : S50000x256.Idx → EReal) k := by
  obtain ⟨-, -, e0, e1, -⟩ := idx_facts t
  have h : ((cfg0.win 0).blk t).view.emb y = k := by
    funext a; apply Fin.ext
    match a with
    | ⟨0, _⟩ => show win0_0.index t (0 : Fin 2) * 2000 + 1 * (y 0).val = (k 0).val; omega
    | ⟨1, _⟩ => show win0_0.index t (1 : Fin 2) * 256 + 1 * (y 1).val = (k 1).val; omega
  rw [View.read_apply, h]
  rfl

theorem read_x (c : Dev nD) (t : Fin cfg0.N) (y : S2000x256.Idx) (k : S50000x256.Idx)
    (hk0 : (k 0).val = t.val * 2000 + (y 0).val) (hk1 : (k 1).val = (y 1).val) :
    (iblk m c 0 t : S2000x256.Idx → EReal) y = (V m c (Pipeline.arrRef spec0 0) : S50000x256.Idx → EReal) k := by
  unfold iblk
  exact blk_x c t _ y k hk0 hk1

/-- The aggregated-message window's block at point t is rows 2000 t … of its array. Stated for any contents `B` of the window's array. -/
theorem blk_a (c : Dev nD) (t : Fin cfg0.N) (B : Buf (Elt Ideal) ((c : Thread nD τ).loc (Pipeline.arrRef spec0 1)))
    (y : S2000x256.Idx) (k : S50000x256.Idx)
    (hk0 : (k 0).val = t.val * 2000 + (y 0).val) (hk1 : (k 1).val = (y 1).val) :
    (((cfg0.win 1).blk t).view.read (Elt Ideal) B : S2000x256.Idx → EReal) y = (B : S50000x256.Idx → EReal) k := by
  obtain ⟨-, -, -, -, e0, e1, -⟩ := idx_facts t
  have h : ((cfg0.win 1).blk t).view.emb y = k := by
    funext a; apply Fin.ext
    match a with
    | ⟨0, _⟩ => show win0_1.index t (0 : Fin 2) * 2000 + 1 * (y 0).val = (k 0).val; omega
    | ⟨1, _⟩ => show win0_1.index t (1 : Fin 2) * 256 + 1 * (y 1).val = (k 1).val; omega
  rw [View.read_apply, h]
  rfl

theorem read_a (c : Dev nD) (t : Fin cfg0.N) (y : S2000x256.Idx) (k : S50000x256.Idx)
    (hk0 : (k 0).val = t.val * 2000 + (y 0).val) (hk1 : (k 1).val = (y 1).val) :
    (iblk m c 1 t : S2000x256.Idx → EReal) y = (V m c (Pipeline.arrRef spec0 1) : S50000x256.Idx → EReal) k := by
  unfold iblk
  exact blk_a c t _ y k hk0 hk1

/-- A whole-array window's block is its array, at every point: the first weight window. Stated for any contents `B` of the window's array. -/
theorem blk_w1 (c : Dev nD) (t : Fin cfg0.N) (B : Buf (Elt Ideal) ((c : Thread nD τ).loc (Pipeline.arrRef spec0 2))) :
    (((cfg0.win 2).blk t).view.read (Elt Ideal) B : S256x256.Idx → EReal) = (B : S256x256.Idx → EReal) := by
  obtain ⟨-, -, -, -, -, -, e0, e1, -⟩ := idx_facts t
  funext y
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 256 + 1 * (y 1).val = (y 1).val; omega
  rw [View.read_apply, h]
  rfl

theorem read_w1 (c : Dev nD) (t : Fin cfg0.N) :
    (iblk m c 2 t : S256x256.Idx → EReal) = (V m c (Pipeline.arrRef spec0 2) : S256x256.Idx → EReal) := by
  unfold iblk
  exact blk_w1 c t _

/-- The first bias window's block is its one-row array. Stated for any contents `B` of the window's array. -/
theorem blk_b1 (c : Dev nD) (t : Fin cfg0.N) (B : Buf (Elt Ideal) ((c : Thread nD τ).loc (Pipeline.arrRef spec0 3))) :
    (((cfg0.win 3).blk t).view.read (Elt Ideal) B : S1x256.Idx → EReal) = (B : S1x256.Idx → EReal) := by
  obtain ⟨-, -, -, -, -, -, -, -, e0, e1, -⟩ := idx_facts t
  funext y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 256 + 1 * (y 1).val = (y 1).val; omega
  rw [View.read_apply, h]
  rfl

theorem read_b1 (c : Dev nD) (t : Fin cfg0.N) :
    (iblk m c 3 t : S1x256.Idx → EReal) = (V m c (Pipeline.arrRef spec0 3) : S1x256.Idx → EReal) := by
  unfold iblk
  exact blk_b1 c t _

/-- The second weight window's block is its array. Stated for any contents `B` of the window's array. -/
theorem blk_w2 (c : Dev nD) (t : Fin cfg0.N) (B : Buf (Elt Ideal) ((c : Thread nD τ).loc (Pipeline.arrRef spec0 4))) :
    (((cfg0.win 4).blk t).view.read (Elt Ideal) B : S256x256.Idx → EReal) = (B : S256x256.Idx → EReal) := by
  obtain ⟨-, -, -, -, -, -, -, -, -, -, e0, e1, -⟩ := idx_facts t
  funext y
  have h : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [View.read_apply, h]
  rfl

theorem read_w2 (c : Dev nD) (t : Fin cfg0.N) :
    (iblk m c 4 t : S256x256.Idx → EReal) = (V m c (Pipeline.arrRef spec0 4) : S256x256.Idx → EReal) := by
  unfold iblk
  exact blk_w2 c t _

/-- The second bias window's block is its one-row array. Stated for any contents `B` of the window's array. -/
theorem blk_b2 (c : Dev nD) (t : Fin cfg0.N) (B : Buf (Elt Ideal) ((c : Thread nD τ).loc (Pipeline.arrRef spec0 5))) :
    (((cfg0.win 5).blk t).view.read (Elt Ideal) B : S1x256.Idx → EReal) = (B : S1x256.Idx → EReal) := by
  obtain ⟨-, -, -, -, -, -, -, -, -, -, -, -, e0, e1, -⟩ := idx_facts t
  funext y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  rw [View.read_apply, h]
  rfl

theorem read_b2 (c : Dev nD) (t : Fin cfg0.N) :
    (iblk m c 5 t : S1x256.Idx → EReal) = (V m c (Pipeline.arrRef spec0 5) : S1x256.Idx → EReal) := by
  unfold iblk
  exact blk_b2 c t _

/-- The scale window's block is its one-row array. Stated for any contents `B` of the window's array. -/
theorem blk_gamma (c : Dev nD) (t : Fin cfg0.N) (B : Buf (Elt Ideal) ((c : Thread nD τ).loc (Pipeline.arrRef spec0 6))) :
    (((cfg0.win 6).blk t).view.read (Elt Ideal) B : S1x256.Idx → EReal) = (B : S1x256.Idx → EReal) := by
  obtain ⟨-, -, -, -, -, -, -, -, -, -, -, -, -, -, e0, e1, -⟩ := idx_facts t
  funext y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 256 + 1 * (y 1).val = (y 1).val; omega
  rw [View.read_apply, h]
  rfl

theorem read_gamma (c : Dev nD) (t : Fin cfg0.N) :
    (iblk m c 6 t : S1x256.Idx → EReal) = (V m c (Pipeline.arrRef spec0 6) : S1x256.Idx → EReal) := by
  unfold iblk
  exact blk_gamma c t _

/-- The shift window's block is its one-row array. Stated for any contents `B` of the window's array. -/
theorem blk_beta (c : Dev nD) (t : Fin cfg0.N) (B : Buf (Elt Ideal) ((c : Thread nD τ).loc (Pipeline.arrRef spec0 7))) :
    (((cfg0.win 7).blk t).view.read (Elt Ideal) B : S1x256.Idx → EReal) = (B : S1x256.Idx → EReal) := by
  obtain ⟨-, -, -, -, -, -, -, -, -, -, -, -, -, -, -, -, e0, e1⟩ := idx_facts t
  funext y
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 256 + 1 * (y 1).val = (y 1).val; omega
  rw [View.read_apply, h]
  rfl

theorem read_beta (c : Dev nD) (t : Fin cfg0.N) :
    (iblk m c 7 t : S1x256.Idx → EReal) = (V m c (Pipeline.arrRef spec0 7) : S1x256.Idx → EReal) := by
  unfold iblk
  exact blk_beta c t _

/-- The array of new rows of the arrays the region finds in its eight input windows (x, the aggregated messages, the
    first weights and bias, the second weights and bias, scale, shift: the call's operand order). -/
def whole (c : Dev nD) : S50000x256.Idx → EReal :=
  arrayOut (V m c (Pipeline.arrRef spec0 0) : S50000x256.Idx → EReal) (V m c (Pipeline.arrRef spec0 1) : S50000x256.Idx → EReal)
    (V m c (Pipeline.arrRef spec0 2) : S256x256.Idx → EReal) (V m c (Pipeline.arrRef spec0 3) : S1x256.Idx → EReal)
    (V m c (Pipeline.arrRef spec0 4) : S256x256.Idx → EReal) (V m c (Pipeline.arrRef spec0 5) : S1x256.Idx → EReal)
    (V m c (Pipeline.arrRef spec0 6) : S1x256.Idx → EReal) (V m c (Pipeline.arrRef spec0 7) : S1x256.Idx → EReal)

/-- A block of 2000 rows whose entry j is entry (2000 t + row of j, column of j) of an array G is block t of G,
    read through the result window. Stated for any block `P` and any array `G`. -/
theorem cut_eq_read (c : Dev nD) (t : Fin cfg0.N) (P : S2000x256.Idx → EReal) (G : S50000x256.Idx → EReal)
    (hPG : ∀ (j : S2000x256.Idx) (i : S50000x256.Idx), (i 0).val = t.val * 2000 + (j 0).val → (i 1).val = (j 1).val →
      P j = G i) :
    (cfg0.win 8).cut (grid0.coords t) P = ((cfg0.win 8).blk t).view.read (Elt Ideal) G := by
  obtain ⟨e0, e1, -⟩ := idx_facts t
  funext j
  show P j = ((cfg0.win 8).blk t).view.read (Elt Ideal) G j
  rw [View.read_apply]
  refine (hPG j (((cfg0.win 8).blk t).view.emb j) ?_ ?_).trans ?_
  · show win0_8.index t (0 : Fin 2) * 2000 + 1 * (j 0).val = t.val * 2000 + (j 0).val; omega
  · show win0_8.index t (1 : Fin 2) * 256 + 1 * (j 1).val = (j 1).val; omega
  · rfl

/-- What point t writes back is block t of the array of new rows. -/
theorem flushed_eq (c : Dev nD) (t : Fin cfg0.N) :
    (dats m 0 c).flushed 8 t = ((cfg0.win 8).blk t).view.read (Elt Ideal) (whole m c) := by
  rw [flushed8]
  unfold out0_8
  rw [View.canon_unit_zero zero_off]
  simp only [View.ld_unit_zero (S := S2000x256) zero_off, View.ld_unit_zero (S := S256x256) zero_off,
    View.ld_unit_zero (S := S1x256) zero_off]
  rw [Cert.KernelRows.payload_eq (iblk m c 0 t) (iblk m c 1 t) (iblk m c 2 t) (iblk m c 3 t) (iblk m c 4 t)
    (iblk m c 5 t) (iblk m c 6 t) (iblk m c 7 t)]
  refine cut_eq_read c t _ _ (fun j i h0 h1 => ?_)
  unfold whole
  exact block_entry _ _ _ _ _ _ _ _ _ _ _ _ _ _ _ _ t.val j i h0 h1 (read_x m c t) (read_a m c t)
    (read_w1 m c t) (read_b1 m c t) (read_w2 m c t) (read_b2 m c t) (read_gamma m c t) (read_beta m c t)

/-- An index of the result array is in point t's block iff each coordinate is in the block's range on its axis. -/
theorem mem_blk (t : Fin cfg0.N) (i : S50000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v22).slice (win0_8.rect t)).set ↔ _
  rw [View.set_slice_whole, Rect.mem_set_unit]
  exact Iff.rfl

/-- Every index of the result array is in the block of the point its row belongs to. -/
theorem cover (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  have hN : (i 0).val / 2000 < cfg0.N := by
    show (i 0).val / 2000 < grid0.N
    rw [N_0]; omega
  obtain ⟨e0, e1, -⟩ := idx_facts ⟨(i 0).val / 2000, hN⟩
  refine ⟨⟨(i 0).val / 2000, hN⟩, flush0_8 _, ?_⟩
  rw [mem_blk]
  intro a
  match a with
  | ⟨0, _⟩ =>
    show win0_8.index ⟨(i 0).val / 2000, hN⟩ (0 : Fin 2) * 2000 ≤ (i 0).val
      ∧ (i 0).val < win0_8.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, hN⟩ (1 : Fin 2) * 256 ≤ (i 1).val
      ∧ (i 1).val < win0_8.index ⟨(i 0).val / 2000, hN⟩ (1 : Fin 2) * 256 + 256
    rw [e1]; omega

/-- The result array after the run is the array of new rows of the arrays the region finds. -/
theorem final (c : Dev nD) : (dats m 0 c).arrAt 8 cfg0.N = whole m c :=
  (dats m 0 c).arrAt_eq_of_cover 8 (whole m c) (fun t _ => flushed_eq m c t) cover

/-- The kernel's run: the result at the array of new rows, the arguments unchanged. -/
theorem run : θ_run defs (onTc (τ := τ) (main (F := Ideal))) ⟨m, fun _ => 0, ρ⟩ fun r => ∀ c : Dev nD,
      r.2.mem ((c : Thread nD τ).loc main_v22) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelBlocks

end
-- ==== Proof.lean ====
/-
  The certificate of the graph block: gather-add-relu messages scatter-added into the nodes, then for every node
  z = x + aggr, two dense layers with relu, the residual sum with x, and layer normalisation of the row.

  The kernel computes the aggregated messages on the host exactly as the reference does and runs the dense part in
  25 blocks of 2000 rows; the reference runs it on all 50000 rows at once. On the extended reals a change of float
  format is the identity, a matrix product into a zero accumulator is the plain sum of products, and a lane sum is
  the plain sum, so both programs compute, at entry (p, q), entry q of one function of row p of x, row p of the
  aggregated messages, and the shared weights: `Cert.RowNet.rowOut`. Rows are independent, so the blocks of the
  kernel's result are the blocks of the reference's, and the 25 blocks cover the array. No law of arithmetic is used
  beyond 0 + s = s for the reference's sums, and the precondition is never opened.

  Modules: RowNet (the row function and the array of new rows), KernelRows (the kernel body at an entry), RefRows
  (the reference at an entry), HostArrays (what the kernel's windows hold at region entry), KernelBlocks (blocks to
  the whole array and the kernel's run), and the claims here. The idealisation rewrote nothing, so the kernel's
  idealised program is its own text read on the extended reals.
-/
import proofs.«123430_j12180527252066_2_alg».proof.Defs
import proofs.«123430_j12180527252066_2_alg».proof.Proof.Gen.Kernel
import proofs.«123430_j12180527252066_2_alg».proof.Proof.Gen.Kernel.Skeleton
import proofs.«123430_j12180527252066_2_alg».proof.Proof.Gen.Kernel.Launch
import proofs.«123430_j12180527252066_2_alg».proof.Proof.Gen.Kernel.Points
import proofs.«123430_j12180527252066_2_alg».proof.Proof.Gen.Kernel.Frame
import proofs.«123430_j12180527252066_2_alg».proof.Proof.Gen.KernelIdeal
import proofs.«123430_j12180527252066_2_alg».proof.Proof.Gen.KernelIdeal.Skeleton
import proofs.«123430_j12180527252066_2_alg».proof.Proof.Gen.KernelIdeal.Launch
import proofs.«123430_j12180527252066_2_alg».proof.Proof.Gen.KernelIdeal.Points
import proofs.«123430_j12180527252066_2_alg».proof.Proof.Gen.KernelIdeal.Frame
import proofs.«123430_j12180527252066_2_alg».proof.Proof.Gen.ReferenceIdeal
import proofs.«123430_j12180527252066_2_alg».proof.Proof.Gen.Pre_finite_inputs
import proofs.«123430_j12180527252066_2_alg».proof.Proof.Gen.KernelIdeal.Value
import proofs.«123430_j12180527252066_2_alg».proof.Proof.Gen.ReferenceIdeal.Run
import proofs.«123430_j12180527252066_2_alg».proof.Proof.Gen.ReferenceIdeal.Read
import proofs.«123430_j12180527252066_2_alg».proof.Proof.RowNet
import proofs.«123430_j12180527252066_2_alg».proof.Proof.KernelRows
import proofs.«123430_j12180527252066_2_alg».proof.Proof.RefRows
import proofs.«123430_j12180527252066_2_alg».proof.Proof.HostArrays
import proofs.«123430_j12180527252066_2_alg».proof.Proof.KernelBlocks
import Idealize.ShloMosaic.Adequacy
import Idealize.ShloMosaic.Init

noncomputable section

namespace Cert.Proof

open Idealize.ShloMosaic Idealize.ShloMosaic.TcCoe Idealize.SL.Sem Cert.RowNet

/-- The array of new rows of the arrays the kernel's region finds, in terms of the program's arguments: x itself,
    the reference's aggregated-message array of the arguments, the weights themselves, the four vectors as rows. -/
theorem whole_eq (m : (ℓ : Loc Cert.KernelIdeal.nD Cert.KernelIdeal.τ Cert.KernelIdeal.sig) → Buf (Elt Ideal) ℓ)
    (c : Dev Cert.KernelIdeal.nD) :
    Cert.KernelBlocks.whole m c
      = arrayOut (m ((c : Thread Cert.KernelIdeal.nD Cert.KernelIdeal.τ).loc Cert.KernelIdeal.main_arg0))
          (Cert.RefRows.aggr (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (m ((c : Thread Cert.KernelIdeal.nD Cert.KernelIdeal.τ).loc Cert.KernelIdeal.main_arg3))
          (Cert.RefRows.rowOf (m ((c : Thread Cert.KernelIdeal.nD Cert.KernelIdeal.τ).loc Cert.KernelIdeal.main_arg4)))
          (m ((c : Thread Cert.KernelIdeal.nD Cert.KernelIdeal.τ).loc Cert.KernelIdeal.main_arg5))
          (Cert.RefRows.rowOf (m ((c : Thread Cert.KernelIdeal.nD Cert.KernelIdeal.τ).loc Cert.KernelIdeal.main_arg6)))
          (Cert.RefRows.rowOf (m ((c : Thread Cert.KernelIdeal.nD Cert.KernelIdeal.τ).loc Cert.KernelIdeal.main_arg7)))
          (Cert.RefRows.rowOf (m ((c : Thread Cert.KernelIdeal.nD Cert.KernelIdeal.τ).loc Cert.KernelIdeal.main_arg8))) := by
  unfold Cert.KernelBlocks.whole
  rw [Cert.HostArrays.x_win, Cert.HostArrays.aggr_win, Cert.HostArrays.w1_win, Cert.HostArrays.b1_win,
    Cert.HostArrays.w2_win, Cert.HostArrays.b2_win, Cert.HostArrays.gamma_win, Cert.HostArrays.beta_win]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the array of new rows of the same arguments. -/
theorem algebraic : Cert.algebraic_KernelIdeal_ReferenceIdeal := by
  intro m ρ m' ρ' _ hagree
  refine ⟨fun c => Cert.KernelBlocks.whole m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v51_eq, Cert.RefRows.result_eq, a0, a1, a2, a3, a4, a5, a6, a7, a8]
  exact (whole_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
